-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x65536 : Shape := ⟨2, ![2048, 65536]⟩
abbrev S_ : Shape := ⟨0, ![]⟩

class Facts : Prop where
  bcast_S_S2048x65536 : S_.BroadcastsInDim S2048x65536 (![] : Fin 0 → Fin S2048x65536.rank)
  reducesTo_S2048x65536_S_d0_1 : S2048x65536.ReducesTo [0, 1] S_
  h_S_ : 0 < S_.numel

variable [Facts]

def fn {F : FTy → Type} [FloatOps F] (main_arg0 : FVec F S2048x65536 .f32) : IVec S_ 1 :=
  let main_v0 : FVec F S2048x65536 .f32 := Host.absf main_arg0
  let main_cst : FVec F S_ .f32 := constant S_ .f32 0x7F800000#32
  let main_v1 : FVec F S2048x65536 .f32 := broadcastInDim S2048x65536 ![] bcast_S_S2048x65536 main_cst
  let main_v2 : IVec S2048x65536 1 := cmpf .olt main_v0 main_v1
  let main_c : IVec S_ 1 := constantI S_ 1 1#1
  let main_v3 : IVec S_ 1 := (fun x v => Host.reduce IntOp.andi x v reducesTo_S2048x65536_S_d0_1 h_S_) main_v2 main_c
  main_v3
-- ==== Kernel.lean ====
abbrev S2048x65536 : Shape := ⟨2, ![2048, 65536]⟩
abbrev S2048x1024 : Shape := ⟨2, ![2048, 1024]⟩
abbrev S64x65536 : Shape := ⟨2, ![64, 65536]⟩
abbrev S64x1024 : Shape := ⟨2, ![64, 1024]⟩
abbrev S64x8192 : Shape := ⟨2, ![64, 8192]⟩
abbrev S64x128x64 : Shape := ⟨3, ![64, 128, 64]⟩
abbrev S64x128 : Shape := ⟨2, ![64, 128]⟩

abbrev nBuf : Space → Nat
  | .hbm => 2
  | .vmem => 4
  | .smem => 0
  | _ => 0

abbrev bufTy : (tb : Table) → Fin (tcTables nBuf tb) → BufTy
  | .hbm, ⟨0, _⟩ => ⟨S2048x65536, .f32⟩
  | .hbm, ⟨1, _⟩ => ⟨S2048x1024, .f32⟩
  | .local _ .vmem, ⟨0, _⟩ => ⟨S64x65536, .f32⟩
  | .local _ .vmem, ⟨1, _⟩ => ⟨S64x65536, .f32⟩
  | .local _ .vmem, ⟨2, _⟩ => ⟨S64x1024, .f32⟩
  | .local _ .vmem, ⟨3, _⟩ => ⟨S64x1024, .f32⟩
  | _, _ => ⟨S2048x65536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32 : BitVec 32 := 0#32
  let c8_i32 : BitVec 32 := 8#32
  let v0 : BitVec 32 := Scalar.addi c0_i32 c8_i32
  let c1_i32 : BitVec 32 := 1#32
  ⟨c0_i32, v0, c1_i32⟩
def k0_mult1 (k0_t1 : Fin k0_t1_loop.trips) : BitVec 32 :=
  let c0_i32 : BitVec 32 := 0#32
  let c1_i32 : BitVec 32 := 1#32
  let arg3 : BitVec 32 := Scf.iv c0_i32 c1_i32 k0_t1
  let c8192_i32 : BitVec 32 := 8192#32
  let v1 : BitVec 32 := Scalar.muli arg3 c8192_i32
  v1
def k0_off1 (k0_t1 : Fin k0_t1_loop.trips) : Fin 2 → Nat :=
  let c0 : Index := 0#32
  let c0_i32 : BitVec 32 := 0#32
  let c1_i32 : BitVec 32 := 1#32
  let arg3 : BitVec 32 := Scf.iv c0_i32 c1_i32 k0_t1
  let c8192_i32 : BitVec 32 := 8192#32
  let v1 : BitVec 32 := Scalar.muli arg3 c8192_i32
  let v2 : BitVec 32 := v1
  let v3 : Index := Scalar.indexCast v2
  ![0, v3.toNat]
def k0_mult2 (k0_t1 : Fin k0_t1_loop.trips) : BitVec 32 :=
  let c0_i32 : BitVec 32 := 0#32
  let c1_i32 : BitVec 32 := 1#32
  let arg3 : BitVec 32 := Scf.iv c0_i32 c1_i32 k0_t1
  let c128_i32 : BitVec 32 := 128#32
  let v7 : BitVec 32 := Scalar.muli arg3 c128_i32
  v7
def k0_off2 (k0_t1 : Fin k0_t1_loop.trips) : Fin 2 → Nat :=
  let c0_1 : Index := 0#32
  let c0_i32 : BitVec 32 := 0#32
  let c1_i32 : BitVec 32 := 1#32
  let arg3 : BitVec 32 := Scf.iv c0_i32 c1_i32 k0_t1
  let c128_i32 : BitVec 32 := 128#32
  let v7 : BitVec 32 := Scalar.muli arg3 c128_i32
  let v8 : BitVec 32 := v7
  let v9 : Index := Scalar.indexCast v8
  ![0, v9.toNat]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x65536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  h_S64x8192 : 0 < S64x8192.numel
  shapeCasts_S64x8192_S64x128x64 : S64x8192.ShapeCasts S64x128x64
  reduces_S64x128x64_S64x128 : S64x128x64.Reduces [2] S64x128
  h_S64x128 : 0 < S64x128.numel
  hrank0 : 0 < grid0.rank
  k0_t1_ok : k0_t1_loop.OK
  k0_mult1_dvd : ∀ k0_t1 : Fin k0_t1_loop.trips, 128 ∣ (k0_mult1 k0_t1).toNat
  k0_off1_inb : ∀ k0_t1 : Fin k0_t1_loop.trips, ∀ a, (k0_off1 k0_t1) a + S64x8192.size a ≤ S64x65536.size a
  k0_mult2_dvd : ∀ k0_t1 : Fin k0_t1_loop.trips, 128 ∣ (k0_mult2 k0_t1).toNat
  k0_off2_inb : ∀ k0_t1 : Fin k0_t1_loop.trips, ∀ a, (k0_off2 k0_t1) a + S64x128.size a ≤ S64x1024.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x65536.size a ≤ S2048x65536.size a
  hwx0_0 : ∀ i : grid0.Coords, EltTy.bits .f32 = 32 ∨ (Rect.block (s := S2048x65536) S64x65536.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x1024.size a ≤ S2048x1024.size a
  hwx0_1 : ∀ i : grid0.Coords, EltTy.bits .f32 = 32 ∨ (Rect.block (s := S2048x1024) S64x1024.size (cc0_transform_1 i) (hinb0_1 i)).WholeWords (EltTy.packing .f32)

variable [Facts₀]

abbrev win0_0 : Pipeline.Window sig grid0 :=
  Pipeline.Window.ofSpec (Memref.whole main_arg0) S64x65536.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S64x1024.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S2048x65536 : Shape := ⟨2, ![2048, 65536]⟩
abbrev S2048x1024x64 : Shape := ⟨3, ![2048, 1024, 64]⟩
abbrev S_ : Shape := ⟨0, ![]⟩
abbrev S2048x1024 : Shape := ⟨2, ![2048, 1024]⟩

abbrev nBuf : Space → Nat
  | .hbm => 4
  | .vmem => 0
  | .smem => 0
  | _ => 0

abbrev bufTy : (tb : Table) → Fin (tcTables nBuf tb) → BufTy
  | .hbm, ⟨0, _⟩ => ⟨S2048x65536, .f32⟩
  | .hbm, ⟨1, _⟩ => ⟨S2048x1024x64, .f32⟩
  | .hbm, ⟨2, _⟩ => ⟨S_, .f32⟩
  | .hbm, ⟨3, _⟩ => ⟨S2048x1024, .f32⟩
  | _, _ => ⟨S2048x65536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]

class Facts₀ : Prop where
  shapeCasts_S2048x65536_S2048x1024x64 : S2048x65536.ShapeCasts S2048x1024x64
  reducesTo_S2048x1024x64_S2048x1024_d2 : S2048x1024x64.ReducesTo [2] S2048x1024
  h_S_ : 0 < S_.numel

variable [Facts₀]

class Facts : Prop extends Facts₀ where

variable [Facts]
-- ==== Proof.PartitionSum.lean ====
/-
  Sums over contiguous partitions of a row.

  A row of 65536 entries is read as 1024 consecutive partitions of 64 entries each; the partition sum of a
  matrix `X` with such rows is the matrix whose entry `(b, p)` is `∑ l < 64, X (b, 64 * p + l)`.  The number
  of rows plays no part, so everything is stated for any number `R` of rows: the whole arrays have 2048 rows,
  a block of 64 consecutive rows has 64.

  The same sum can be taken chunk by chunk: a chunk of 8192 consecutive columns holds 128 whole partitions,
  partition `q` of chunk `k` is partition `128 * k + q` of the row, and column `64 * q + l` of chunk `k` is
  column `8192 * k + (64 * q + l) = 64 * (128 * k + q) + l` of the row.
-/
import Idealize.ShloMosaic.PureOps.Ideal
import Idealize.ShloMosaic.Lib.ValueIdx

noncomputable section

namespace PartitionSum

open Idealize.ShloMosaic Idealize.ShloMosaic.ValueIdx
open scoped BigOperators

/-- The column of entry `l` of partition `p` in a row of 1024 partitions of length 64. -/
def col (p : Fin 1024) (l : Fin 64) : Fin 65536 := ⟨64 * p.val + l.val, by omega⟩

@[simp] theorem col_val (p : Fin 1024) (l : Fin 64) : (col p l).val = 64 * p.val + l.val := rfl

/-- The column of entry `l` of partition `q` inside a chunk of 128 partitions. -/
def chunkCol (q : Fin 128) (l : Fin 64) : Fin 8192 := ⟨64 * q.val + l.val, by omega⟩

@[simp] theorem chunkCol_val (q : Fin 128) (l : Fin 64) : (chunkCol q l).val = 64 * q.val + l.val := rfl

/-- THE PARTITION SUMS of a matrix with `R` rows of 65536 entries: entry `(b, p)` is the sum of the 64 entries of
    partition `p` of row `b`. -/
def sums {R : Nat} (X : (⟨2, ![R, 65536]⟩ : Shape).Idx → EReal) : (⟨2, ![R, 1024]⟩ : Shape).Idx → EReal :=
  fun i => ∑ l : Fin 64, X (ix2 (i 0) (col (i 1) l))

theorem sums_apply {R : Nat} (X : (⟨2, ![R, 65536]⟩ : Shape).Idx → EReal) (b : Fin R) (p : Fin 1024) :
    sums X (ix2 b p) = ∑ l : Fin 64, X (ix2 b (col p l)) := rfl

/-- PARTITION SUMS ARE TAKEN ROW BY ROW: if row `r` of `x` is row `ρ r` of `X`, then row `r` of the partition
    sums of `x` is row `ρ r` of the partition sums of `X`. -/
theorem sums_rows {R R' : Nat} (X : (⟨2, ![R, 65536]⟩ : Shape).Idx → EReal) (x : (⟨2, ![R', 65536]⟩ : Shape).Idx → EReal)
    (ρ : Fin R' → Fin R) (h : ∀ (r : Fin R') (j : Fin 65536), x (ix2 r j) = X (ix2 (ρ r) j)) (r : Fin R') (p : Fin 1024) :
    sums x (ix2 r p) = sums X (ix2 (ρ r) p) := by
  rw [sums_apply, sums_apply]
  exact Finset.sum_congr rfl fun l _ => h r (col p l)

end PartitionSum

end
-- ==== Proof.KernelBlock.lean ====
/-
  What the kernel body leaves in its output block: the partition sums of its input block.

  At one grid point the body sees a block `x` of 64 rows of 65536 entries and fills a block of 64 rows of 1024
  entries in eight trips of a loop.  Trip `k` reads columns `8192 * k … 8192 * k + 8191` of `x` (a chunk: 128 whole
  partitions), regroups each row of the chunk as 128 partitions of 64, adds along each partition, and stores the
  64 × 128 sums at columns `128 * k … 128 * k + 127` of the output block.  Entry `(r, q)` of that store is
  `∑ l < 64, x (r, 8192 * k + 64 * q + l)`, and `8192 * k + 64 * q + l = 64 * (128 * k + q) + l`: it is the sum of
  partition `128 * k + q` of row `r`, the entry `(r, 128 * k + q)` of the block's partition sums.  The eight stores
  tile the output block, and every one of them is a piece of that one function, so the block ends holding it.
-/
import proofs.«115223_j85478439125876_2_alg».proof.Proof.Gen.KernelIdeal.Frame
import proofs.«115223_j85478439125876_2_alg».proof.Proof.PartitionSum
import Idealize.ShloMosaic.Lib.Pipeline.Value
import Idealize.ShloMosaic.Lib.ValueIdx
import Idealize.ShloMosaic.PureOps.Ideal.Laws

set_option maxRecDepth 16384

noncomputable section

namespace Cert.KernelIdeal.Block

open Cert.KernelIdeal Cert.KernelIdeal.Gen
open Idealize.ShloMosaic Idealize.ShloMosaic.TcCoe Idealize.ShloMosaic.ValueIdx Idealize.SL.Sem
open PartitionSum
open scoped BigOperators

/-! ## One trip's arithmetic -/

/-- The reduced index `(r, q)` with the coordinate `l` of the summed axis put back is `(r, q, l)`. -/
theorem lift_eq (r : Fin 64) (q : Fin 128) (l : Fin 64) :
    (reduces_S64x128x64_S64x128).lift (ix2 r q) l = ix3 r q l :=
  funext fun a => Fin.ext (by match a with | ⟨0, _⟩ => rfl | ⟨1, _⟩ => rfl | ⟨2, _⟩ => rfl)

/-- A chunk regrouped as 128 partitions of 64 and added along each partition: entry `(r, q)` is the sum of the
    64 entries of partition `q` of row `r` of the chunk.  (The sum starts from the neutral zero word, so there
    is no initial term.) -/
theorem payload_apply (v : S64x8192.Idx → EReal) (r : Fin 64) (q : Fin 128) :
    k0_pay1 (F := Ideal) v (ix2 r q) = ∑ l : Fin 64, v (ix2 r (chunkCol q l)) := by
  unfold k0_pay1
  refine (Ideal.multiReduction_add_single (shapeCast S64x128x64 v shapeCasts_S64x8192_S64x128x64) 0x00000000#32
    reduces_S64x128x64_S64x128 (.inl rfl) rfl (ix2 r q)).trans ?_
  show (∑ l : Fin 64, shapeCast S64x128x64 v shapeCasts_S64x8192_S64x128x64
    ((reduces_S64x128x64_S64x128).lift (ix2 r q) l)) = _
  refine Finset.sum_congr rfl fun l _ => ?_
  rw [lift_eq]
  exact shapeCast_apply v shapeCasts_S64x8192_S64x128x64 (ix3 r q l) (ix2 r (chunkCol q l)) (by
    rewrite [Shape.rowMajor_val_two, Shape.rowMajor_val_three]
    show r.val * 8192 + (64 * q.val + l.val) = (r.val * 128 + q.val) * 64 + l.val
    omega)

/-! ## One trip's store is a piece of the block's partition sums -/

/-- Trip `k` stores, at columns `128 * k …` of the output block, the payload of the chunk of `x` at columns
    `8192 * k …`; entry `(r, q)` of the store lands on entry `(r, 128 * k + q)` of the block and holds the sum of
    partition `128 * k + q` of row `r` of `x`. -/
theorem store_agrees (arg1 : Memref sig .tc .vmem S64x65536 .f32) (harg1 : arg1.IsWhole)
    (x : S64x65536.Idx → EReal) (k : Fin k0_t1_loop.trips) (y : S64x128.Idx) :
    k0_pay1 (F := Ideal) (View.readAt (Elt Ideal) arg1.view
        (Rect.unit (s := S64x65536) (k0_off1 k) S64x8192.size (k0_off1_inb k)).toLoadRect (harg1.unread x)) y
      = sums x ((Rect.unit (s := S64x1024) (k0_off2 k) S64x128.size (k0_off2_inb k)).emb y) := by
  have hk : k.val < 8 := Nat.lt_of_lt_of_le k.isLt k0_t1_abs.2.1
  have o1 : k0_off1 k 1 = 8192 * k.val := congrFun (k0_off1_eq k) 1
  have o1' : k0_off1 k 0 = 0 := congrFun (k0_off1_eq k) 0
  have o2 : k0_off2 k 1 = 128 * k.val := congrFun (k0_off2_eq k) 1
  have o2' : k0_off2 k 0 = 0 := congrFun (k0_off2_eq k) 0
  rw [View.readAt_eq_ld, harg1.read_unread]
  obtain ⟨r, q, rfl⟩ : ∃ (r : Fin 64) (q : Fin 128), y = ix2 r q := ⟨y 0, y 1, eq_ix2 y⟩
  rw [payload_apply]
  have e : (Rect.unit (s := S64x1024) (k0_off2 k) S64x128.size (k0_off2_inb k)).emb (ix2 r q)
      = ix2 r (⟨128 * k.val + q.val, by omega⟩ : Fin 1024) := by
    funext a
    apply Fin.ext
    match a with
    | ⟨0, _⟩ => show k0_off2 k 0 + 1 * r.val = r.val; omega
    | ⟨1, _⟩ => show k0_off2 k 1 + 1 * q.val = 128 * k.val + q.val; omega
  rw [e, sums_apply]
  refine Finset.sum_congr rfl fun l _ => ?_
  show x ((Rect.unit (s := S64x65536) (k0_off1 k) S64x8192.size (k0_off1_inb k)).toLoadRect.idx (ix2 r (chunkCol q l))) = _
  refine congrArg x (funext fun a => Fin.ext ?_)
  match a with
  | ⟨0, _⟩ => show k0_off1 k 0 + 1 * r.val = r.val; omega
  | ⟨1, _⟩ => show k0_off1 k 1 + 1 * (64 * q.val + l.val) = 64 * (128 * k.val + q.val) + l.val; omega

/-! ## The eight stores -/

variable (𝒱 : Variants) (c : Dev nD) (bd : Option 𝒱.V) (i : grid0.Coords)
  (arg1 : Memref sig .tc .vmem S64x65536 .f32) (harg1 : arg1.IsWhole)
  (arg2 : Memref sig .tc .vmem S64x1024 .f32) (harg2 : arg2.IsWhole)

/-- The one store of trip `k`: through the 64 × 128 rectangle at the trip's output offset, of the payload of the
    load through the 64 × 8192 rectangle at the trip's input offset. -/
theorem trip_store (X : BufTy.Contents (Elt Ideal) arg1.view.ty) (k : Fin k0_t1_loop.trips) :
    tripL_k0_t1 (F := Ideal) 𝒱 c bd i arg1 harg1 arg2 harg2 X k
      = [⟨Rect.unit (s := S64x1024) (k0_off2 k) S64x128.size (k0_off2_inb k),
          k0_pay1 (F := Ideal) (View.readAt (Elt Ideal) arg1.view
            (Rect.unit (s := S64x65536) (k0_off1 k) S64x8192.size (k0_off1_inb k)).toLoadRect X)⟩] := by
  unfold tripL_k0_t1 trip_k0_t1
  rfl

/-- Every store of the trips before `n` is a piece of the partition sums of `x`. -/
theorem stores_agree (x : S64x65536.Idx → EReal) :
    ∀ (n : ℕ) (p : View.Piece (Elt Ideal) S64x1024 .f32),
      p ∈ pb_k0_t1 (F := Ideal) 𝒱 c bd i arg1 harg1 arg2 harg2 (harg1.unread x) n →
      ∀ y : p.1.shape.Idx, p.2 y = sums x (p.1.emb y)
  | 0, p, hp, _ => absurd hp List.not_mem_nil
  | n + 1, p, hp, y => by
    by_cases h : n < k0_t1_loop.trips
    · have e : pb_k0_t1 (F := Ideal) 𝒱 c bd i arg1 harg1 arg2 harg2 (harg1.unread x) (n + 1)
          = tripL_k0_t1 (F := Ideal) 𝒱 c bd i arg1 harg1 arg2 harg2 (harg1.unread x) ⟨n, h⟩
            ++ pb_k0_t1 (F := Ideal) 𝒱 c bd i arg1 harg1 arg2 harg2 (harg1.unread x) n :=
        pb_k0_t1_succ (F := Ideal) 𝒱 c bd i arg1 harg1 arg2 harg2 (harg1.unread x) ⟨n, h⟩
      rw [e, List.mem_append] at hp
      rcases hp with hp | hp
      · rw [trip_store, List.mem_singleton] at hp
        subst hp
        exact store_agrees arg1 harg1 x ⟨n, h⟩ y
      · exact stores_agree x n p hp y
    · rw [pb_k0_t1.eq_2] at hp
      unfold pb_k0_t1Step at hp
      rw [dif_neg h] at hp
      exact stores_agree x n p hp y

/-! ## The block the body leaves -/

/-- THE BODY'S RESULT: on an input block `x` the output block ends holding the partition sums of `x`. -/
theorem body_sums (c : Dev nD) (i : grid0.Coords) (arg1 : Memref sig .tc .vmem S64x65536 .f32) (harg1 : arg1.IsWhole)
    (arg2 : Memref sig .tc .vmem S64x1024 .f32) (harg2 : arg2.IsWhole) (x : S64x65536.Idx → EReal) :
    out0_A_1 (F := Ideal) c i arg1 harg1 arg2 harg2 x = sums x := by
  unfold out0_A_1
  rw [View.read_writes_eq_canon _ _ _ (cover0_A_1 (F := Ideal) c i arg1 harg1 arg2 harg2 x)]
  funext y
  refine View.canon_apply_of_pieces (sums x) _ ?_ y (cover0_A_1 (F := Ideal) c i arg1 harg1 arg2 harg2 x y)
  have e : (kernelRun0_A (F := Ideal) c i arg1 harg1 arg2 harg2 x).1
      = pb_k0_t1 (F := Ideal) Variants.none c none i arg1 harg1 arg2 harg2 (harg1.unread x) k0_t1_loop.trips := by
    unfold kernelRun0_A
    rfl
  rw [e]
  exact stores_agree Variants.none c none i arg1 harg1 arg2 harg2 x k0_t1_loop.trips

end Cert.KernelIdeal.Block

end
-- ==== Proof.KernelSums.lean ====
/-
  The kernel computes the partition sums.

  The grid has 32 points.  Point `t` sees rows `64 * t … 64 * t + 63` of the argument, all 65536 columns, and
  writes rows `64 * t … 64 * t + 63` of the result, all 1024 columns.  The body leaves in its output block the
  partition sums of its input block; partition sums are taken row by row, so that block is rows
  `64 * t … 64 * t + 63` of the partition sums of the whole argument.  Row `b` of the result lies in the block of
  point `b / 64`, so the 32 blocks cover the result, which therefore ends holding the partition sums of the
  argument.
-/
import proofs.«115223_j85478439125876_2_alg».proof.Proof.Gen.KernelIdeal.Value
import proofs.«115223_j85478439125876_2_alg».proof.Proof.KernelBlock

set_option maxRecDepth 16384

noncomputable section

namespace Cert.KernelIdeal.Sums

open Cert.KernelIdeal Cert.KernelIdeal.Gen
open Idealize.ShloMosaic Idealize.ShloMosaic.TcCoe Idealize.ShloMosaic.ValueIdx Idealize.SL.Sem
open Idealize.ShloMosaic.Pipeline (Dat)
open PartitionSum

variable (m : (ℓ : Loc nD τ sig) → Buf (Elt Ideal) ℓ) (ρ : Dev nD → PrngReg)

/-- Where the blocks sit: at point `t` both windows are at block row `t` and block column `0`. -/
theorem block_index : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

theorem point_lt (t : Fin cfg0.N) : t.val < 32 := lt_of_lt_of_eq t.isLt N_0

/-- WHAT POINT `t` WRITES BACK is block `t` of the partition sums of the argument. -/
theorem flushed_eq (c : Dev nD) (t : Fin cfg0.N) :
    (dats m 0 c).flushed 1 t = ((cfg0.win 1).blk t).view.read (Elt Ideal) (sums (V m c main_arg0)) := by
  rw [Value.flushed1_A,
    Block.body_sums c (grid0.coords t) (ms0_0 t) (hs0_0 t) (ms0_1 t) (hs0_1 t) (iblk m c 0 t)]
  obtain ⟨e0, e1, e2, e3⟩ := block_index t
  have ht := point_lt t
  funext j
  show sums (iblk m c 0 t) j = sums (V m c main_arg0) (((cfg0.win 1).blk t).view.emb j)
  obtain ⟨r, p, rfl⟩ : ∃ (r : Fin 64) (p : Fin 1024), j = ix2 r p := ⟨j 0, j 1, eq_ix2 j⟩
  have eo : ((cfg0.win 1).blk t).view.emb (ix2 r p) = ix2 (⟨64 * t.val + r.val, by omega⟩ : Fin 2048) p := by
    funext a
    apply Fin.ext
    match a with
    | ⟨0, _⟩ => show win0_1.index t (0 : Fin 2) * 64 + 1 * r.val = 64 * t.val + r.val; omega
    | ⟨1, _⟩ => show win0_1.index t (1 : Fin 2) * 1024 + 1 * p.val = p.val; omega
  rw [eo]
  refine sums_rows (R := 2048) (R' := 64) (V m c main_arg0) (iblk m c 0 t)
    (fun r => ⟨64 * t.val + r.val, by omega⟩) (fun r j => ?_) r p
  show V m c main_arg0 (((cfg0.win 0).blk t).view.emb (ix2 r j)) = _
  refine congrArg (V m c main_arg0) (funext fun a => Fin.ext ?_)
  match a with
  | ⟨0, _⟩ => show win0_0.index t (0 : Fin 2) * 64 + 1 * r.val = 64 * t.val + r.val; omega
  | ⟨1, _⟩ => show win0_0.index t (1 : Fin 2) * 65536 + 1 * j.val = j.val; omega

/-- An index of the result is in point `t`'s block iff each coordinate is in the block's range on its axis. -/
theorem mem_blk (t : Fin cfg0.N) (i : S2048x1024.Idx) :
    i ∈ ((cfg0.win 1).blk t).view.set ↔ ∀ a : Fin 2, win0_1.index t a * S64x1024.size a ≤ (i a).val
      ∧ (i a).val < win0_1.index t a * S64x1024.size a + S64x1024.size a := by
  show i ∈ ((View.whole main_v0).slice (win0_1.rect t)).set ↔ _
  rw [View.set_slice_whole, Rect.mem_set_unit]
  exact Iff.rfl

/-- THE BLOCKS COVER THE RESULT: row `b` is in the block of point `b / 64`. -/
theorem cover (i : S2048x1024.Idx) :
    ∃ t : Fin cfg0.N, (cfg0.win 1).flush t = true ∧ i ∈ ((cfg0.win 1).blk t).view.set := by
  have hi0 : (i 0).val < 2048 := (i 0).isLt
  have hi1 : (i 1).val < 1024 := (i 1).isLt
  have hq : (i 0).val / 64 < 32 := by omega
  obtain ⟨t, ht⟩ : ∃ t : Fin cfg0.N, t.val = (i 0).val / 64 := ⟨⟨(i 0).val / 64, lt_of_lt_of_eq hq N_0.symm⟩, rfl⟩
  obtain ⟨-, -, e2, e3⟩ := block_index t
  refine ⟨t, flush0_1 t, ?_⟩
  rw [mem_blk]
  intro a
  match a with
  | ⟨0, _⟩ =>
    show win0_1.index t (0 : Fin 2) * 64 ≤ (i 0).val ∧ (i 0).val < win0_1.index t (0 : Fin 2) * 64 + 64
    omega
  | ⟨1, _⟩ =>
    show win0_1.index t (1 : Fin 2) * 1024 ≤ (i 1).val ∧ (i 1).val < win0_1.index t (1 : Fin 2) * 1024 + 1024
    omega

/-- THE RESULT ARRAY after the run: the partition sums of the argument. -/
theorem final (c : Dev nD) :
    (dats m 0 c).arrAt 1 cfg0.N = sums (m ((c : Thread nD τ).loc main_arg0)) :=
  (dats m 0 c).arrAt_eq_of_cover 1 (sums (V m c main_arg0)) (fun t _ => flushed_eq m c t) cover

/-- The kernel's run: every weakly fair execution ends with the result at the partition sums of the argument and
    the argument unchanged. -/
theorem run : θ_run defs (onTc (τ := τ) (main (F := Ideal))) ⟨m, fun _ => 0, ρ⟩ fun r => ∀ c : Dev nD,
      r.2.mem ((c : Thread nD τ).loc main_v0) = sums (m ((c : Thread nD τ).loc main_arg0))
      ∧ r.2.mem ((c : Thread nD τ).loc main_arg0) = m ((c : Thread nD τ).loc main_arg0) :=
  (θ_run defs _ _).mono (fun r h c => ⟨(h c).1.trans (final m c), (h c).2⟩) (Value.run_blocks m ρ)

end Cert.KernelIdeal.Sums

end
-- ==== Proof.ReferenceSums.lean ====
/-
  The reference computes the partition sums.

  The reference reshapes the [2048, 65536] argument to [2048, 1024, 64] and adds, from zero, along the last
  axis.  Row-major order sends entry `(b, p, l)` of the reshaped array to position
  `(b * 1024 + p) * 64 + l = b * 65536 + (64 * p + l)` of the argument, that is to entry `(b, 64 * p + l)`:
  so its result at `(b, p)` is `0 + ∑ l < 64, X (b, 64 * p + l)`, the partition sum.
-/
import proofs.«115223_j85478439125876_2_alg».proof.Proof.Gen.ReferenceIdeal.Read
import proofs.«115223_j85478439125876_2_alg».proof.Proof.PartitionSum
import Idealize.ShloMosaic.PureOps.Ideal.Laws

noncomputable section

namespace Cert.ReferenceIdeal.Sums

open Cert.ReferenceIdeal Idealize.ShloMosaic Idealize.ShloMosaic.ValueIdx PartitionSum
open scoped BigOperators

/-- Entry `(b, p, l)` of the reshaped array is entry `(b, 64 * p + l)` of the argument. -/
theorem reshaped_index (i : S2048x1024.Idx) (l : Fin 64) :
    Read.idx_main_v0 (Read.idx_main_v1 i l) = ix2 (i 0) (col (i 1) l) := by
  have h0 : (i 0).val < 2048 := (i 0).isLt
  have h1 : (i 1).val < 1024 := (i 1).isLt
  have h2 : l.val < 64 := l.isLt
  funext a
  apply Fin.ext
  match a with
  | ⟨0, _⟩ =>
    show (((i 0).val * 1024 + (i 1).val) * 64 + l.val) / 65536 = (i 0).val
    omega
  | ⟨1, _⟩ =>
    show (((i 0).val * 1024 + (i 1).val) * 64 + l.val) % 65536 = 64 * (i 1).val + l.val
    omega

/-- The reference's result, as a function of its argument, is the partition sums. -/
theorem result_eq (X : S2048x65536.Idx → EReal) : Read.val_main_v1 (F := Ideal) X = sums X := by
  funext i
  rw [Read.val_main_v1_apply, Read.val_main_cst_apply, Ideal.ofBits_def, Ideal.ofBits_zero_f32, zero_add]
  refine Finset.sum_congr rfl fun l _ => ?_
  rw [Read.val_main_v0_apply]
  exact congrArg X (reshaped_index i l)

end Cert.ReferenceIdeal.Sums

end
-- ==== Proof.lean ====
/-
  Partition sums: a tiled kernel against `x.reshape(2048, 1024, 64).sum(axis = -1)`.

  The argument is a [2048, 65536] matrix whose rows are 1024 consecutive partitions of 64 entries; both programs
  return the [2048, 1024] matrix of partition sums, `out (b, p) = ∑ l < 64, x (b, 64 * p + l)`.

  The reference reshapes to [2048, 1024, 64] and adds, from zero, along the last axis; in row-major order entry
  `(b, p, l)` of the reshaped array is entry `(b, 64 * p + l)` of the argument.  The kernel walks 32 blocks of 64
  rows; in each it walks 8 chunks of 8192 columns (128 whole partitions), regroups the chunk as [64, 128, 64], adds
  along the last axis and stores the 64 × 128 sums; column `64 * q + l` of chunk `k` is column
  `64 * (128 * k + q) + l` of the row, so the store is columns `128 * k … 128 * k + 127` of the block's partition
  sums, and partition sums are taken row by row, so the block is rows `64 * t … 64 * t + 63` of the whole.

  Over the extended reals both results are the same finite sum of the same 64 entries (the kernel's with no
  initial term, the reference's from the zero word, which is the real zero), so they agree entry by entry with no
  appeal to the finiteness of the inputs.  The idealized kernel is the kernel's own text read over the extended
  reals: nothing was rewritten, and there is nothing to preserve.
-/
import proofs.«115223_j85478439125876_2_alg».proof.Defs
import proofs.«115223_j85478439125876_2_alg».proof.Proof.Gen.Kernel
import proofs.«115223_j85478439125876_2_alg».proof.Proof.Gen.Kernel.Skeleton
import proofs.«115223_j85478439125876_2_alg».proof.Proof.Gen.Kernel.Loops
import proofs.«115223_j85478439125876_2_alg».proof.Proof.Gen.Kernel.Launch
import proofs.«115223_j85478439125876_2_alg».proof.Proof.Gen.Kernel.Points
import proofs.«115223_j85478439125876_2_alg».proof.Proof.Gen.Kernel.Frame
import proofs.«115223_j85478439125876_2_alg».proof.Proof.Gen.KernelIdeal
import proofs.«115223_j85478439125876_2_alg».proof.Proof.Gen.KernelIdeal.Skeleton
import proofs.«115223_j85478439125876_2_alg».proof.Proof.Gen.KernelIdeal.Loops
import proofs.«115223_j85478439125876_2_alg».proof.Proof.Gen.KernelIdeal.Launch
import proofs.«115223_j85478439125876_2_alg».proof.Proof.Gen.KernelIdeal.Points
import proofs.«115223_j85478439125876_2_alg».proof.Proof.Gen.KernelIdeal.Frame
import proofs.«115223_j85478439125876_2_alg».proof.Proof.Gen.ReferenceIdeal
import proofs.«115223_j85478439125876_2_alg».proof.Proof.Gen.Pre_finite_inputs
import proofs.«115223_j85478439125876_2_alg».proof.Proof.Gen.KernelIdeal.Value
import proofs.«115223_j85478439125876_2_alg».proof.Proof.Gen.ReferenceIdeal.Run
import proofs.«115223_j85478439125876_2_alg».proof.Proof.Gen.ReferenceIdeal.Read
import Idealize.ShloMosaic.Adequacy
import Idealize.ShloMosaic.Init
import proofs.«115223_j85478439125876_2_alg».proof.Proof.KernelSums
import proofs.«115223_j85478439125876_2_alg».proof.Proof.ReferenceSums

noncomputable section

namespace Cert.Proof

open Idealize.ShloMosaic Idealize.SL.Sem

/-- The kernel as printed runs to the end without a fault and leaves its argument as it was. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- So does the reference: its run, with what it says of the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- From arguments that agree, the kernel's result and the reference's are both the partition sums of the
    argument. -/
theorem algebraic : Cert.algebraic_KernelIdeal_ReferenceIdeal := by
  intro m ρ m' ρ' _ hagree
  refine ⟨fun c => PartitionSum.sums
      (m ((c.tc : Thread Cert.KernelIdeal.nD Cert.KernelIdeal.τ).loc Cert.KernelIdeal.main_arg0)),
    Cert.KernelIdeal.Sums.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v1_eq, Cert.ReferenceIdeal.Sums.result_eq, hagree c]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, trivial, algebraic⟩

end Cert.Proof

end
